-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S4096x4096 : Shape := ⟨2, ![4096, 4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8x4096x4096 .f32) (main_arg1 : FVec F S4096x4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8x4096x4096 : Shape := ⟨3, ![8, 4096, 4096]⟩
abbrev S4096x4096 : Shape := ⟨2, ![4096, 4096]⟩
abbrev S_ : Shape := ⟨0, ![]⟩
abbrev S32768x4096 : Shape := ⟨2, ![32768, 4096]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 26
  | .vmem => 6
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S32768x4096, .f32⟩
  | .hbm, ⟨24, _⟩ => ⟨S32768x4096, .f32⟩
  | .hbm, ⟨25, _⟩ => ⟨S8x4096x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 2, 8], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  shapeCasts_S8x4096x4096_S32768x4096 : S8x4096x4096.ShapeCasts S32768x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S32768x4096_S8x4096x4096 : S32768x4096.ShapeCasts S8x4096x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x4096.size a
  hwx0_0 : ∀ i : grid0.Coords, EltTy.bits .f32 = 32 ∨ (Rect.block (s := S32768x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S32768x4096.size a
  hwx0_2 : ∀ i : grid0.Coords, EltTy.bits .f32 = 32 ∨ (Rect.block (s := S32768x4096) S1024x2048.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S8x4096x4096 : Shape := ⟨3, ![8, 4096, 4096]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  dot_S8x4096x4096_S4096x4096_S8x4096x4096_2_1_01_0_n_n_wf : DotDims.WF S8x4096x4096 S4096x4096 S8x4096x4096 [2] [1] [0, 1] [0] [] []

variable [Facts₀]

def dot_S8x4096x4096_S4096x4096_S8x4096x4096_2_1_01_0_n_n : DotDims S8x4096x4096 S4096x4096 S8x4096x4096 where
  lhsContracting := [2]
  rhsContracting := [1]
  lhsNonContracting := [0, 1]
  rhsNonContracting := [0]
  lhsBatch := []
  rhsBatch := []
  wf := dot_S8x4096x4096_S4096x4096_S8x4096x4096_2_1_01_0_n_n_wf

class Facts : Prop extends Facts₀ where

variable [Facts]
-- ==== Proof.KernelConds.lean ====
/-
  The grid of the matrix product is (32, 2, 8): row block, column block, and the block `k` of the contracted axis,
  which moves fastest. The body has two branches on `k`: at `k = 0` it stores the block's product, at `k ≠ 0` it adds
  the product to what the output buffer holds. Here the two conditions are decided over the 512 points in closed form
  (a point's `k` is its number mod 8), and the output window is shown to be in use at every coordinate: one of the two
  branches is always taken.
-/
import proofs.«157210_j19533511262471_2_alg».proof.Proof.Gen.Kernel.Frame
import proofs.«157210_j19533511262471_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (`k = 0`) is taken exactly at the points whose number is a multiple of 8. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (`k ≠ 0`) is taken exactly at the other points. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Whatever the coordinate `k` of the contracted axis, one of the two branches is taken. -/
theorem one_branch : ∀ k : Fin 8,
    (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by
  decide

/-- So the output window is in use at every coordinate of the grid. -/
theorem live2 (i : grid0.Coords) : cfg0.idle 2 i = false := one_branch (i 2)

/-- One staging buffer of the output window, through which its contents are stated. -/
abbrev VO : View sig .tc .vmem S1024x2048 .f32 := (Memref.whole cc0_stg2_0 : Memref sig .tc .vmem S1024x2048 .f32).view
/-- Each window's current staging memref at point `t`, as the pipeline passes it to the body, and its wholeness. -/
abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2048 .f32 := win0_2.stage (cfg0.slots t 2)
abbrev hs2 (t : Fin cfg0.N) : (ms2 t).IsWhole := hstage0_2 ((cfg0.slots t 2).cast nbuf0_2)

end Cert.Kernel.Body

end
-- ==== Proof.KernelRunA.lean ====
/-
  The body at a point with `k = 0`: it reads its two input blocks, forms the block product, and overwrites the whole
  output buffer with it (whatever the buffer held). The run is stated on any whole staging memrefs; the list of stores
  the output buffer ends with is found by the run itself.
-/
import proofs.«157210_j19533511262471_2_alg».proof.Proof.KernelConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer at a point with `k = 0` (first branch taken, second not), with the
    proof that from the inputs' buffers at `x0`, `x1` and the output's at anything the body runs to a continuation that
    gets the inputs' buffers back unchanged and the output's with those stores written. -/
noncomputable def kernelRunA (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : k0_cond1 i = 1#1) (hc2 : ¬ k0_cond2 i = 1#1)
    (x0 : Vec F S1024x512 .f32) (x1 : Vec F S2048x512 .bf16) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L)) -∗ K ⟨⟩))
          ⊢ wp frame (wpE (defs₀ (F := F)) Variants.none c none) E (cc0__matmul_kernel i arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Body

end
-- ==== Proof.KernelRunB.lean ====
/-
  The body at a point with `k ≠ 0`: it reads its two input blocks and the output buffer, and overwrites the whole
  output buffer with the sum of what it held and the block product. The run is stated on any whole staging memrefs,
  the output's at its running contents; the list of stores the output buffer ends with is found by the run itself.
-/
import proofs.«157210_j19533511262471_2_alg».proof.Proof.KernelRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer at a point with `k ≠ 0` (first branch not taken, second taken),
    with the proof that from the inputs' buffers at `x0`, `x1` and the output's at its running contents `xo` the body
    runs to a continuation that gets the inputs' buffers back unchanged and the output's with those stores written. -/
noncomputable def kernelRunB (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : ¬ k0_cond1 i = 1#1) (hc2 : k0_cond2 i = 1#1)
    (x0 : Vec F S1024x512 .f32) (x1 : Vec F S2048x512 .bf16) (xo : Vec F S1024x2048 .f32) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L)) -∗ K ⟨⟩))
          ⊢ wp frame (wpE (defs₀ (F := F)) Variants.none c none) E (cc0__matmul_kernel i arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Body

end
-- ==== Proof.KernelFrame.lean ====
/-
  The frame of the program: it runs to the end, faults nowhere and leaves its argument arrays unchanged.

  The output block of a (row block, column block) pair stays in one staging buffer through the eight points of its
  `k` sweep and is written back after the last. So what that buffer holds after a point is defined by recursion on
  the point's number `n`: at `n ≡ 0 (mod 8)` what the first branch stores, computed from the point's two input blocks;
  otherwise what the second branch stores, computed from the input blocks and from what the point before left.
  With that as the proof data of the pipeline, the body's two runs discharge the body obligation at every point, and
  the launch theorem for a region followed by host operations gives the run.
-/
import proofs.«157210_j19533511262471_2_alg».proof.Proof.KernelRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At `k = 0` the body's one store fills the output block, so its stores cover the block. -/
theorem coverA (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : k0_cond1 i = 1#1) (hc2 : ¬ k0_cond2 i = 1#1) (x0 : Vec F S1024x512 .f32) (x1 : Vec F S2048x512 .bf16) (y : S1024x2048.Idx) :
    ∃ pc ∈ (kernelRunA c i arg3 harg3 arg4 harg4 arg5 harg5 hc1 hc2 x0 x1).1, y ∈ pc.1.set :=
  View.cover_of_tiledL (kernelRunA c i arg3 harg3 arg4 harg4 arg5 harg5 hc1 hc2 x0 x1).1 S1024x2048.size (by sl_kernel_rfl) y

/-- What a point with `k = 0` leaves in the output's staging buffer: its stores read back. -/
def outA (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : k0_cond1 i = 1#1) (hc2 : ¬ k0_cond2 i = 1#1) (x0 : Vec F S1024x512 .f32) (x1 : Vec F S2048x512 .bf16) : Vec F S1024x2048 .f32 :=
  VO.read (Elt F) (VO.writes (Elt F) VO.junk (kernelRunA c i arg3 harg3 arg4 harg4 arg5 harg5 hc1 hc2 x0 x1).1)

/-- At `k ≠ 0` likewise. -/
theorem coverB (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : ¬ k0_cond1 i = 1#1) (hc2 : k0_cond2 i = 1#1) (x0 : Vec F S1024x512 .f32) (x1 : Vec F S2048x512 .bf16) (xo : Vec F S1024x2048 .f32) (y : S1024x2048.Idx) :
    ∃ pc ∈ (kernelRunB c i arg3 harg3 arg4 harg4 arg5 harg5 hc1 hc2 x0 x1 xo).1, y ∈ pc.1.set :=
  View.cover_of_tiledL (kernelRunB c i arg3 harg3 arg4 harg4 arg5 harg5 hc1 hc2 x0 x1 xo).1 S1024x2048.size (by sl_kernel_rfl) y

/-- What a point with `k ≠ 0` leaves in the output's staging buffer, from what it found there. -/
def outB (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : ¬ k0_cond1 i = 1#1) (hc2 : k0_cond2 i = 1#1) (x0 : Vec F S1024x512 .f32) (x1 : Vec F S2048x512 .bf16) (xo : Vec F S1024x2048 .f32) : Vec F S1024x2048 .f32 :=
  VO.read (Elt F) (VO.writes (Elt F) VO.junk (kernelRunB c i arg3 harg3 arg4 harg4 arg5 harg5 hc1 hc2 x0 x1 xo).1)

/-! ## What the output's buffer holds after each point -/

/-- The accumulation: after point `n`, the first branch's contents when `n` is a multiple of 8, else the second
    branch's over what point `n - 1` left. -/
def outsAt (c : Dev nD) : (n : ℕ) → n < cfg0.N → Vec F S1024x2048 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) ((hcond1 ⟨n + 1, hn⟩).mpr h0) (fun h => (hcond2 ⟨n + 1, hn⟩).mp h h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (outsAt c n (Nat.lt_of_succ_lt hn))

/-- `outsAt` at a point with `k = 0`. -/
theorem outsAt_A (c : Dev nD) (t : Fin cfg0.N) (h0 : t.val % 8 = 0) :
    outsAt m c t.val t.isLt = outA c (grid0.coords t) (ms0 t) (hs0 t) (ms1 t) (hs1 t) (ms2 t) (hs2 t) ((hcond1 t).mpr h0) (fun h => (hcond2 t).mp h h0) (iblk m c 0 t) (iblk m c 1 t) := by
  obtain ⟨n, hn⟩ := t
  cases n with
  | zero => exact rfl
  | succ n => exact (dif_pos h0).trans rfl

/-- `outsAt` at a point with `k ≠ 0`: over what the point before left. -/
theorem outsAt_B (c : Dev nD) (t : Fin cfg0.N) (h0 : ¬ t.val % 8 = 0) :
    outsAt m c t.val t.isLt = outB c (grid0.coords t) (ms0 t) (hs0 t) (ms1 t) (hs1 t) (ms2 t) (hs2 t) (fun h => h0 ((hcond1 t).mp h)) ((hcond2 t).mpr h0) (iblk m c 0 t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a point with `k ≠ 0` the output's current staging buffer holds what the body left at the point before: the point
    is not the first, the buffer is written back only after `k = 7`, and the window is in use and uncut. -/
theorem before2_B (c : Dev nD) (t : Fin cfg0.N) (h0 : ¬ t.val % 8 = 0) (d) :
    (dats m 0 c).before 2 t d = (outsAt m c (t.val - 1) (Nat.lt_of_le_of_lt (Nat.sub_le _ _) t.isLt)) := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    (fun i => live2 i) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' memrefs hold their blocks; the point's number mod 8 says which branch runs; at
    `k ≠ 0` the output's buffer holds what the point before left; so the matching run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  have hN : t.val < 512 := lt_of_lt_of_eq t.isLt (show cfg0.N = 512 from N_0)
  by_cases h0 : t.val % 8 = 0
  · rw [outsAt_A m c t h0]
    unfold outA
    iintro ⟨HΦ, Ho, ⟨%d0, H0⟩, ⟨%d1, H1⟩, ⟨%d2, H2⟩⟩
    iapply ((kernelRunA c (grid0.coords t) _ _ _ _ _ _ ((hcond1 t).mpr h0) (fun h => (hcond2 t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _)
  · rw [outsAt_B m c t h0]
    simp only [before2_B m c t h0]
    unfold outB
    iintro ⟨HΦ, Ho, ⟨%d0, H0⟩, ⟨%d1, H1⟩, ⟨%d2, H2⟩⟩
    iapply ((kernelRunB c (grid0.coords t) _ _ _ _ _ _ (fun h => h0 ((hcond1 t).mp h)) ((hcond2 t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _)

/-- The library's body obligation, at every point (the output window is in use at every point: `live2`). -/
theorem body_obligation (c : Dev nD) : BodyObligation (dats (F := F) m 0 c) (defs₀ (F := F)) Variants.none () Set.univ := fun t => by
  rw [bigSep_W0, bigSep_W0]
  have live2' : ∀ i : grid0.Coords, idle0 2 i = false := live2
  simp only [live2']
  exact sound_body m c t

/-! ## The run and the frame -/

set_option backward.isDefEq.respectTransparency.types false in
/-- From any memory with zero counters every weakly fair execution of the program terminates, and every final state
    has the pipeline's arrays at what the proof data gives and every other unscoped buffer as the host operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealConds.lean ====
/-
  The grid of the matrix product is (32, 2, 8): row block, column block, and the block `k` of the contracted axis,
  which moves fastest. The body has two branches on `k`: at `k = 0` it stores the block's product, at `k ≠ 0` it adds
  the product to what the output buffer holds. Here the two conditions are decided over the 512 points in closed form
  (a point's `k` is its number mod 8), and the output window is shown to be in use at every coordinate: one of the two
  branches is always taken.
-/
import proofs.«157210_j19533511262471_2_alg».proof.Proof.Gen.KernelIdeal.Frame
import proofs.«157210_j19533511262471_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (`k = 0`) is taken exactly at the points whose number is a multiple of 8. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (`k ≠ 0`) is taken exactly at the other points. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Whatever the coordinate `k` of the contracted axis, one of the two branches is taken. -/
theorem one_branch : ∀ k : Fin 8,
    (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by
  decide

/-- So the output window is in use at every coordinate of the grid. -/
theorem live2 (i : grid0.Coords) : cfg0.idle 2 i = false := one_branch (i 2)

/-- One staging buffer of the output window, through which its contents are stated. -/
abbrev VO : View sig .tc .vmem S1024x2048 .f32 := (Memref.whole cc0_stg2_0 : Memref sig .tc .vmem S1024x2048 .f32).view
/-- Each window's current staging memref at point `t`, as the pipeline passes it to the body, and its wholeness. -/
abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2048 .f32 := win0_2.stage (cfg0.slots t 2)
abbrev hs2 (t : Fin cfg0.N) : (ms2 t).IsWhole := hstage0_2 ((cfg0.slots t 2).cast nbuf0_2)

end Cert.KernelIdeal.Body

end
-- ==== Proof.KernelIdealRunA.lean ====
/-
  The body at a point with `k = 0`: it reads its two input blocks, forms the block product, and overwrites the whole
  output buffer with it (whatever the buffer held). The run is stated on any whole staging memrefs; the list of stores
  the output buffer ends with is found by the run itself.
-/
import proofs.«157210_j19533511262471_2_alg».proof.Proof.KernelIdealConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer at a point with `k = 0` (first branch taken, second not), with the
    proof that from the inputs' buffers at `x0`, `x1` and the output's at anything the body runs to a continuation that
    gets the inputs' buffers back unchanged and the output's with those stores written. -/
noncomputable def kernelRunA (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : k0_cond1 i = 1#1) (hc2 : ¬ k0_cond2 i = 1#1)
    (x0 : Vec F S1024x512 .f32) (x1 : Vec F S2048x512 .bf16) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L)) -∗ K ⟨⟩))
          ⊢ wp frame (wpE (defs₀ (F := F)) Variants.none c none) E (cc0__matmul_kernel i arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Body

end
-- ==== Proof.KernelIdealRunB.lean ====
/-
  The body at a point with `k ≠ 0`: it reads its two input blocks and the output buffer, and overwrites the whole
  output buffer with the sum of what it held and the block product. The run is stated on any whole staging memrefs,
  the output's at its running contents; the list of stores the output buffer ends with is found by the run itself.
-/
import proofs.«157210_j19533511262471_2_alg».proof.Proof.KernelIdealRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer at a point with `k ≠ 0` (first branch not taken, second taken),
    with the proof that from the inputs' buffers at `x0`, `x1` and the output's at its running contents `xo` the body
    runs to a continuation that gets the inputs' buffers back unchanged and the output's with those stores written. -/
noncomputable def kernelRunB (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : ¬ k0_cond1 i = 1#1) (hc2 : k0_cond2 i = 1#1)
    (x0 : Vec F S1024x512 .f32) (x1 : Vec F S2048x512 .bf16) (xo : Vec F S1024x2048 .f32) :
    { L : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L)) -∗ K ⟨⟩))
          ⊢ wp frame (wpE (defs₀ (F := F)) Variants.none c none) E (cc0__matmul_kernel i arg3 harg3 arg4 harg4 arg5 harg5) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Body

end
-- ==== Proof.KernelIdealFrame.lean ====
/-
  The frame of the program: it runs to the end, faults nowhere and leaves its argument arrays unchanged.

  The output block of a (row block, column block) pair stays in one staging buffer through the eight points of its
  `k` sweep and is written back after the last. So what that buffer holds after a point is defined by recursion on
  the point's number `n`: at `n ≡ 0 (mod 8)` what the first branch stores, computed from the point's two input blocks;
  otherwise what the second branch stores, computed from the input blocks and from what the point before left.
  With that as the proof data of the pipeline, the body's two runs discharge the body obligation at every point, and
  the launch theorem for a region followed by host operations gives the run.
-/
import proofs.«157210_j19533511262471_2_alg».proof.Proof.KernelIdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At `k = 0` the body's one store fills the output block, so its stores cover the block. -/
theorem coverA (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : k0_cond1 i = 1#1) (hc2 : ¬ k0_cond2 i = 1#1) (x0 : Vec F S1024x512 .f32) (x1 : Vec F S2048x512 .bf16) (y : S1024x2048.Idx) :
    ∃ pc ∈ (kernelRunA c i arg3 harg3 arg4 harg4 arg5 harg5 hc1 hc2 x0 x1).1, y ∈ pc.1.set :=
  View.cover_of_tiledL (kernelRunA c i arg3 harg3 arg4 harg4 arg5 harg5 hc1 hc2 x0 x1).1 S1024x2048.size (by sl_kernel_rfl) y

/-- What a point with `k = 0` leaves in the output's staging buffer: its stores read back. -/
def outA (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : k0_cond1 i = 1#1) (hc2 : ¬ k0_cond2 i = 1#1) (x0 : Vec F S1024x512 .f32) (x1 : Vec F S2048x512 .bf16) : Vec F S1024x2048 .f32 :=
  VO.read (Elt F) (VO.writes (Elt F) VO.junk (kernelRunA c i arg3 harg3 arg4 harg4 arg5 harg5 hc1 hc2 x0 x1).1)

/-- At `k ≠ 0` likewise. -/
theorem coverB (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : ¬ k0_cond1 i = 1#1) (hc2 : k0_cond2 i = 1#1) (x0 : Vec F S1024x512 .f32) (x1 : Vec F S2048x512 .bf16) (xo : Vec F S1024x2048 .f32) (y : S1024x2048.Idx) :
    ∃ pc ∈ (kernelRunB c i arg3 harg3 arg4 harg4 arg5 harg5 hc1 hc2 x0 x1 xo).1, y ∈ pc.1.set :=
  View.cover_of_tiledL (kernelRunB c i arg3 harg3 arg4 harg4 arg5 harg5 hc1 hc2 x0 x1 xo).1 S1024x2048.size (by sl_kernel_rfl) y

/-- What a point with `k ≠ 0` leaves in the output's staging buffer, from what it found there. -/
def outB (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : ¬ k0_cond1 i = 1#1) (hc2 : k0_cond2 i = 1#1) (x0 : Vec F S1024x512 .f32) (x1 : Vec F S2048x512 .bf16) (xo : Vec F S1024x2048 .f32) : Vec F S1024x2048 .f32 :=
  VO.read (Elt F) (VO.writes (Elt F) VO.junk (kernelRunB c i arg3 harg3 arg4 harg4 arg5 harg5 hc1 hc2 x0 x1 xo).1)

/-! ## What the output's buffer holds after each point -/

/-- The accumulation: after point `n`, the first branch's contents when `n` is a multiple of 8, else the second
    branch's over what point `n - 1` left. -/
def outsAt (c : Dev nD) : (n : ℕ) → n < cfg0.N → Vec F S1024x2048 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) ((hcond1 ⟨n + 1, hn⟩).mpr h0) (fun h => (hcond2 ⟨n + 1, hn⟩).mp h h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (outsAt c n (Nat.lt_of_succ_lt hn))

/-- `outsAt` at a point with `k = 0`. -/
theorem outsAt_A (c : Dev nD) (t : Fin cfg0.N) (h0 : t.val % 8 = 0) :
    outsAt m c t.val t.isLt = outA c (grid0.coords t) (ms0 t) (hs0 t) (ms1 t) (hs1 t) (ms2 t) (hs2 t) ((hcond1 t).mpr h0) (fun h => (hcond2 t).mp h h0) (iblk m c 0 t) (iblk m c 1 t) := by
  obtain ⟨n, hn⟩ := t
  cases n with
  | zero => exact rfl
  | succ n => exact (dif_pos h0).trans rfl

/-- `outsAt` at a point with `k ≠ 0`: over what the point before left. -/
theorem outsAt_B (c : Dev nD) (t : Fin cfg0.N) (h0 : ¬ t.val % 8 = 0) :
    outsAt m c t.val t.isLt = outB c (grid0.coords t) (ms0 t) (hs0 t) (ms1 t) (hs1 t) (ms2 t) (hs2 t) (fun h => h0 ((hcond1 t).mp h)) ((hcond2 t).mpr h0) (iblk m c 0 t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a point with `k ≠ 0` the output's current staging buffer holds what the body left at the point before: the point
    is not the first, the buffer is written back only after `k = 7`, and the window is in use and uncut. -/
theorem before2_B (c : Dev nD) (t : Fin cfg0.N) (h0 : ¬ t.val % 8 = 0) (d) :
    (dats m 0 c).before 2 t d = (outsAt m c (t.val - 1) (Nat.lt_of_le_of_lt (Nat.sub_le _ _) t.isLt)) := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    (fun i => live2 i) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' memrefs hold their blocks; the point's number mod 8 says which branch runs; at
    `k ≠ 0` the output's buffer holds what the point before left; so the matching run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  have hN : t.val < 512 := lt_of_lt_of_eq t.isLt (show cfg0.N = 512 from N_0)
  by_cases h0 : t.val % 8 = 0
  · rw [outsAt_A m c t h0]
    unfold outA
    iintro ⟨HΦ, Ho, ⟨%d0, H0⟩, ⟨%d1, H1⟩, ⟨%d2, H2⟩⟩
    iapply ((kernelRunA c (grid0.coords t) _ _ _ _ _ _ ((hcond1 t).mpr h0) (fun h => (hcond2 t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _)
  · rw [outsAt_B m c t h0]
    simp only [before2_B m c t h0]
    unfold outB
    iintro ⟨HΦ, Ho, ⟨%d0, H0⟩, ⟨%d1, H1⟩, ⟨%d2, H2⟩⟩
    iapply ((kernelRunB c (grid0.coords t) _ _ _ _ _ _ (fun h => h0 ((hcond1 t).mp h)) ((hcond2 t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _)

/-- The library's body obligation, at every point (the output window is in use at every point: `live2`). -/
theorem body_obligation (c : Dev nD) : BodyObligation (dats (F := F) m 0 c) (defs₀ (F := F)) Variants.none () Set.univ := fun t => by
  rw [bigSep_W0, bigSep_W0]
  have live2' : ∀ i : grid0.Coords, idle0 2 i = false := live2
  simp only [live2']
  exact sound_body m c t

/-! ## The run and the frame -/

set_option backward.isDefEq.respectTransparency.types false in
/-- From any memory with zero counters every weakly fair execution of the program terminates, and every final state
    has the pipeline's arrays at what the proof data gives and every other unscoped buffer as the host operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdealPieces.lean ====
/-
  What the output buffer holds after a point, as arithmetic. At `k = 0` the one store's value is the block product of
  the point's two input blocks; at `k ≠ 0` it is that product added to what the buffer held. Hence the buffer's
  contents after point `t` are a fold over the points of its `k` sweep: the product at the sweep's first point
  (number `8 · (t / 8)`), then one product added per later point up to `t`.
-/
import proofs.«157210_j19533511262471_2_alg».proof.Proof.KernelIdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- At `k = 0` the buffer ends at the block product. -/
theorem outA_eq (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : k0_cond1 i = 1#1) (hc2 : ¬ k0_cond2 i = 1#1) (x0 : Vec F S1024x512 .f32) (x1 : Vec F S2048x512 .bf16) :
    outA c i arg3 harg3 arg4 harg4 arg5 harg5 hc1 hc2 x0 x1 = k0_pay1 x0 x1 := by
  unfold outA
  rw [View.read_writes_eq_canon _ _ _ (coverA c i arg3 harg3 arg4 harg4 arg5 harg5 hc1 hc2 x0 x1)]
  unfold kernelRunA
  dsimp only
  rw [View.canon_unit_zero hz]
  simp only [View.readAt_eq_ld, harg3.read_unread, harg4.read_unread, View.ld_unit_zero (S := S1024x512) hz,
    View.ld_unit_zero (S := S2048x512) hz]

/-- At `k ≠ 0` the buffer ends at what it held plus the block product. -/
theorem outB_eq (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole)
    (hc1 : ¬ k0_cond1 i = 1#1) (hc2 : k0_cond2 i = 1#1) (x0 : Vec F S1024x512 .f32) (x1 : Vec F S2048x512 .bf16) (xo : Vec F S1024x2048 .f32) :
    outB c i arg3 harg3 arg4 harg4 arg5 harg5 hc1 hc2 x0 x1 xo = k0_pay2 x0 x1 xo := by
  unfold outB
  rw [View.read_writes_eq_canon _ _ _ (coverB c i arg3 harg3 arg4 harg4 arg5 harg5 hc1 hc2 x0 x1 xo)]
  unfold kernelRunB
  dsimp only
  rw [View.canon_unit_zero hz]
  simp only [View.readAt_eq_ld, harg3.read_unread, harg4.read_unread, harg5.read_unread, View.ld_unit_zero (S := S1024x512) hz,
    View.ld_unit_zero (S := S2048x512) hz, View.ld_unit_zero (S := S1024x2048) hz]

/-- The block product of point `n`'s input blocks: what a sweep starts from. -/
def reset (c : Dev nD) (n : ℕ) (hn : n < cfg0.N) : Vec F S1024x2048 .f32 :=
  k0_pay1 (iblk m c 0 ⟨n, hn⟩) (iblk m c 1 ⟨n, hn⟩)

/-- Point `n`'s product added to a running block: one step of a sweep. -/
def step (c : Dev nD) (n : ℕ) (hn : n < cfg0.N) (acc : Vec F S1024x2048 .f32) : Vec F S1024x2048 .f32 :=
  k0_pay2 (iblk m c 0 ⟨n, hn⟩) (iblk m c 1 ⟨n, hn⟩) acc

/-- After point `t` the output's buffer holds the fold of its sweep up to `t`. -/
theorem outsAt_fold (c : Dev nD) (t : ℕ) (ht : t < cfg0.N) (h' : 8 * (t / 8) + t % 8 < cfg0.N) :
    outsAt m c t ht = Pipeline.accAt (reset m c) (step m c) (8 * (t / 8)) (t % 8) h' :=
  Pipeline.eq_accAt_of_mod (outsAt m c) 8 (reset m c) (step m c)
    (fun n h h0 => (outsAt_A m c ⟨n, h⟩ h0).trans (outA_eq c _ _ _ _ _ _ _ _ _ _ _))
    (fun n h hne => (outsAt_B m c ⟨n + 1, h⟩ hne).trans (outB_eq c _ _ _ _ _ _ _ _ _ _ _ _))
    (by decide) t ht h'

end Cert.KernelIdeal.Body

end
-- ==== Proof.Spec.lean ====
/-
  What both programs compute, stated once over literal shapes and the extended reals.

  The weight matrix `w` (4096 × 4096) is quantized to three levels around its mean absolute value: with
  `s = mean |w| + ε`, each entry becomes `clip (round (w / s)) (-1) 1 · s` (`tern`). The result is the activations
  `x` (8 × 4096 × 4096) times the transpose of that matrix: entry `(b, r, o)` is the sum over `k` of
  `x (b, r, k) · a (o, k)` (`linear`).

  Three facts about sums and sums-with-a-real-summand on the extended reals are proved here as well: a sum over
  `n · b` consecutive naturals is the sum of `n` consecutive blocks of `b`; and `w + (a − w) = a` whenever `w` is a real
  number (the reference adds the quantization error back to the weight; the kernel uses the quantized weight directly).
-/
import Idealize.ShloMosaic.PureOps.Ideal
import Idealize.ShloMosaic.Lib.ValueIdx

noncomputable section

open scoped BigOperators

namespace Cert.Spec

open Idealize.ShloMosaic Idealize.ShloMosaic.ValueIdx

/-- The shapes, spelt as literals. -/
abbrev SW : Shape := ⟨2, ![4096, 4096]⟩
abbrev SX : Shape := ⟨3, ![8, 4096, 4096]⟩
abbrev S0 : Shape := ⟨0, ![]⟩

/-- The scale of the quantization: the mean absolute value of the weights plus a small constant. -/
def scale (hred : SW.ReducesTo [0, 1] S0) (hS : 0 < S0.numel) (w : FVec Ideal SW .f32) : FVec Ideal S0 .f32 :=
  addf (F := Ideal)
    (Host.divf (F := Ideal) (Host.reduceAdd (F := Ideal) (Host.absf (F := Ideal) w) (constant (F := Ideal) S0 .f32 0x00000000#32) hred hS)
      (constant (F := Ideal) S0 .f32 0x4B800000#32))
    (constant (F := Ideal) S0 .f32 0x322BCC77#32)

/-- The quantized weights: each entry over the scale, rounded, clipped to [-1, 1], times the scale. -/
def tern (hred : SW.ReducesTo [0, 1] S0) (hS : 0 < S0.numel) (hb : S0.BroadcastsInDim SW (![] : Fin 0 → Fin SW.rank))
    (w : FVec Ideal SW .f32) : FVec Ideal SW .f32 :=
  mulf (F := Ideal)
    (minimumf (F := Ideal) (broadcastInDim SW ![] hb (id (constant (F := Ideal) S0 .f32 0x3F800000#32)))
      (maximumf (F := Ideal) (broadcastInDim SW ![] hb (id (constant (F := Ideal) S0 .f32 0xBF800000#32)))
        (Host.roundeven (F := Ideal) (Host.divf (F := Ideal) w (broadcastInDim SW ![] hb (scale hred hS w))))))
    (broadcastInDim SW ![] hb (scale hred hS w))

/-- Activations times the transpose of a weight matrix, entry by entry. -/
def linear (x : FVec Ideal SX .f32) (a : FVec Ideal SW .f32) : FVec Ideal SX .f32 :=
  fun i => ∑ k : Fin 4096, x (ix3 (n0 := 8) (n1 := 4096) (i 0) (i 1) k) * a (ix2 (n0 := 4096) (i 2) k)

theorem linear_apply (x : FVec Ideal SX .f32) (a : FVec Ideal SW .f32) (b : Fin 8) (r o : Fin 4096) :
    linear x a (ix3 b r o) = ∑ k : Fin 4096, x (ix3 b r k) * a (ix2 o k) := rfl

/-- A sum over `n · b` consecutive naturals, block by block. -/
theorem sum_range_blocks {β : Type*} [AddCommMonoid β] (f : ℕ → β) (b : ℕ) :
    ∀ n : ℕ, ∑ s ∈ Finset.range n, ∑ k ∈ Finset.range b, f (b * s + k) = ∑ j ∈ Finset.range (n * b), f j
  | 0 => by simp
  | n + 1 => by
    rw [Finset.sum_range_succ, sum_range_blocks f b n, Nat.succ_mul, Finset.sum_range_add, Nat.mul_comm b n]

/-- Adding back what was subtracted: on the extended reals `w + (a - w) = a` when `w` is a real number. -/
theorem add_sub_cancel_real (w : ℝ) (a : EReal) : (w : EReal) + (a - (w : EReal)) = a := by
  induction a using EReal.rec with
  | bot => simp
  | top => simp
  | coe r => rw [← EReal.coe_sub, ← EReal.coe_add]; congr 1; ring

end Cert.Spec

end
-- ==== Proof.KernelIdealPay.lean ====
/-
  The two values the kernel's body computes, read entry by entry over the extended reals.

  The first is the product of an activation block `a` (1024 × 512) with the transpose of a weight block `w`
  (2048 × 512): entry `(p, q)` is the sum over `k` of `a (p, k) · w (q, k)`. On the way the activations change
  float format and both blocks are cast from a shape to itself; over the extended reals neither does anything. The
  product is accumulated into a block of zeros, so nothing is added to the sum.

  The second adds that product to a running block, entry by entry.

  Last, a fact about sums only: eight consecutive blocks of 512 terms are the 4096 terms in order.
-/
import proofs.«157210_j19533511262471_2_alg».proof.Proof.Gen.KernelIdeal.Skeleton
import Idealize.ShloMosaic.Lib.ValueIdx
import Idealize.ShloMosaic.Lib.Pipeline.Value
import Idealize.ShloMosaic.PureOps.Ideal.Laws
import proofs.«157210_j19533511262471_2_alg».proof.Proof.Spec

noncomputable section

open scoped BigOperators

namespace Cert.KernelIdeal.Pay

open Cert.KernelIdeal Cert.KernelIdeal.Gen Idealize.ShloMosaic Idealize.ShloMosaic.ValueIdx Idealize.SL.Sem

/-- The product's dimension record: axis 1 of each operand is summed over, axis 0 of each is kept. -/
abbrev dims : DotDims S1024x512 S2048x512 S1024x2048 := dot_S1024x512_S2048x512_S1024x2048_1_1_0_0_n_n

/-- The left operand is read in the row of the result's entry ... -/
theorem lhs_row (j : S1024x2048.Idx) (c : dims.contr.Idx) : (dims.lhsIdx j c 0).val = (j 0).val := by
  unfold DotDims.lhsIdx
  rw [dif_neg (show ¬(0 : Fin S1024x512.rank) ∈ dims.lhsBatch by decide),
    dif_pos (show (0 : Fin S1024x512.rank) ∈ dims.lhsNonContracting by decide)]
  rfl

/-- ... at the summation position; -/
theorem lhs_col (j : S1024x2048.Idx) (c : dims.contr.Idx) : (dims.lhsIdx j c 1).val = (c ⟨0, by decide⟩).val :=
  dims.lhsIdx_val_of_single rfl j c

/-- the right operand is read in the row numbered by the result's column ... -/
theorem rhs_row (j : S1024x2048.Idx) (c : dims.contr.Idx) : (dims.rhsIdx j c 0).val = (j 1).val := by
  unfold DotDims.rhsIdx
  rw [dif_neg (show ¬(0 : Fin S2048x512.rank) ∈ dims.rhsBatch by decide),
    dif_pos (show (0 : Fin S2048x512.rank) ∈ dims.rhsNonContracting by decide)]
  rfl

/-- ... at the summation position as well. -/
theorem rhs_col (j : S1024x2048.Idx) (c : dims.contr.Idx) : (dims.rhsIdx j c 1).val = (c ⟨0, by decide⟩).val :=
  dims.rhsIdx_val_of_single rfl j c

/-- Entry `(p, q)` of the product is the sum over `k` of `a (p, k) · w (q, k)`. -/
theorem pay1_apply (x0 : FVec Ideal S1024x512 .f32) (x1 : FVec Ideal S2048x512 .bf16) (p : Fin 1024) (q : Fin 2048) :
    k0_pay1 (F := Ideal) x0 x1 (ix2 p q) = ∑ k : Fin 512, x0 (ix2 p k) * x1 (ix2 q k) := by
  unfold k0_pay1
  simp only [shapeCast_self]
  refine (Ideal.matmul_constant_zero_apply dims none _ _ _).trans ?_
  rw [← Equiv.sum_comp (contrEquiv1 dims 512 rfl rfl).symm]
  refine Finset.sum_congr rfl fun k _ => ?_
  have hk := contrEquiv1_symm_val dims 512 rfl rfl k
  have el : dims.lhsIdx (ix2 p q) ((contrEquiv1 dims 512 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 512 rfl rfl).symm k) = ix2 q k := funext fun a => Fin.ext (by
    match a with
    | ⟨0, _⟩ => exact rhs_row _ _
    | ⟨1, _⟩ => exact (rhs_col _ _).trans hk)
  rw [el, er]
  rfl

/-- The running block plus the product, entry by entry. -/
theorem pay2_apply (x0 : FVec Ideal S1024x512 .f32) (x1 : FVec Ideal S2048x512 .bf16) (acc : FVec Ideal S1024x2048 .f32)
    (j : S1024x2048.Idx) :
    k0_pay2 (F := Ideal) x0 x1 acc j = acc j + k0_pay1 (F := Ideal) x0 x1 j := by
  unfold k0_pay2
  simp only [shapeCast_self]
  rfl

/-- Eight blocks of 512 consecutive terms, summed block by block, are the sum of all 4096 terms. -/
theorem sum_fin_blocks (f : ℕ → EReal) :
    ∑ s ∈ Finset.range 8, ∑ k : Fin 512, f (512 * s + k.val) = ∑ k : Fin 4096, f k.val := by
  rw [← Finset.sum_range (fun j => f j), show (4096 : ℕ) = 8 * 512 from rfl, ← Cert.Spec.sum_range_blocks f 512 8]
  exact Finset.sum_congr rfl fun s _ => (Finset.sum_range (fun k => f (512 * s + k))).symm

end Cert.KernelIdeal.Pay

end
-- ==== Proof.KernelIdealValue.lean ====
/-
  The matrix-product region's result array, at the ideal instance, as one function of the two arrays it reads.

  Write `X` (32768 × 4096) for the flattened activations and `A` (4096 × 4096) for the quantized weights as the region
  finds them. Point `t` of the grid has row block `t / 16`, column block `(t / 8) mod 2` and contraction block
  `t mod 8`; its input blocks are rows `1024 · (t / 16) + p`, columns `512 · (t mod 8) + k` of `X` and rows
  `2048 · ((t / 8) mod 2) + r`, the same columns, of `A`. The output buffer after the last point of a sweep holds, at
  `(p, r)`, the sum over the sweep's eight points of the block products, that is the sum over all 4096 columns of
  `X (row, k) · A (row', k)`. The sweeps' last points are the ones written back, and their blocks tile the result array.
-/
import proofs.«157210_j19533511262471_2_alg».proof.Proof.KernelIdealPieces
import proofs.«157210_j19533511262471_2_alg».proof.Proof.KernelIdealPay

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-! ## The blocks' places -/

theorem idx0 : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)
theorem idx1 : ∀ t : Fin cfg0.N, win0_1.index t (0 : Fin 2) = (t.val / 8) % 2 ∧ win0_1.index t (1 : Fin 2) = t.val % 8 :=
  (by decide +kernel : ∀ t : Fin grid0.N, win0_1.index t (0 : Fin 2) = (t.val / 8) % 2 ∧ win0_1.index t (1 : Fin 2) = t.val % 8)
theorem idx2 : ∀ t : Fin cfg0.N, win0_2.index t (0 : Fin 2) = t.val / 16 ∧ win0_2.index t (1 : Fin 2) = (t.val / 8) % 2 :=
  (by decide +kernel : ∀ t : Fin grid0.N, win0_2.index t (0 : Fin 2) = t.val / 16 ∧ win0_2.index t (1 : Fin 2) = (t.val / 8) % 2)

/-- The flattened activations as the region finds them, read at natural coordinates (zero outside the array). -/
def Xn (c : Dev nD) (a b : ℕ) : EReal :=
  if h : a < 32768 ∧ b < 4096 then (V m c main_v11 : S32768x4096.Idx → EReal) (ix2 ⟨a, h.1⟩ ⟨b, h.2⟩) else 0
/-- The quantized weights as the region finds them, read at natural coordinates (zero outside the array). -/
def Wn (c : Dev nD) (a b : ℕ) : EReal :=
  if h : a < 4096 ∧ b < 4096 then (V m c main_v10 : S4096x4096.Idx → EReal) (ix2 ⟨a, h.1⟩ ⟨b, h.2⟩) else 0

/-- The activation block of point `n` at `(p, k)`. -/
theorem iblk0_apply (c : Dev nD) (n : ℕ) (hn : n < cfg0.N) (p : Fin 1024) (k : Fin 512)
    (h1 : 1024 * (n / 16) + p.val < 32768) (h2 : 512 * (n % 8) + k.val < 4096) :
    (iblk m c 0 ⟨n, hn⟩ : Vec Ideal S1024x512 .f32) (ix2 p k)
      = (V m c main_v11 : S32768x4096.Idx → EReal) (ix2 ⟨1024 * (n / 16) + p.val, h1⟩ ⟨512 * (n % 8) + k.val, h2⟩) := by
  have e0 : win0_0.index ⟨n, hn⟩ (0 : Fin 2) = n / 16 := (idx0 ⟨n, hn⟩).1
  have e1 : win0_0.index ⟨n, hn⟩ (1 : Fin 2) = n % 8 := (idx0 ⟨n, hn⟩).2
  unfold iblk
  rw [View.read_apply]
  show V m c main_v11 _ = V m c main_v11 _
  congr 1
  funext a
  apply Fin.ext
  match a with
  | ⟨0, _⟩ => show win0_0.index ⟨n, hn⟩ (0 : Fin 2) * 1024 + 1 * p.val = 1024 * (n / 16) + p.val; rw [e0]; omega
  | ⟨1, _⟩ => show win0_0.index ⟨n, hn⟩ (1 : Fin 2) * 512 + 1 * k.val = 512 * (n % 8) + k.val; rw [e1]; omega

/-- The weight block of point `n` at `(r, k)`. -/
theorem iblk1_apply (c : Dev nD) (n : ℕ) (hn : n < cfg0.N) (r : Fin 2048) (k : Fin 512)
    (h1 : 2048 * ((n / 8) % 2) + r.val < 4096) (h2 : 512 * (n % 8) + k.val < 4096) :
    (iblk m c 1 ⟨n, hn⟩ : Vec Ideal S2048x512 .bf16) (ix2 r k)
      = (V m c main_v10 : S4096x4096.Idx → EReal) (ix2 ⟨2048 * ((n / 8) % 2) + r.val, h1⟩ ⟨512 * (n % 8) + k.val, h2⟩) := by
  have e0 : win0_1.index ⟨n, hn⟩ (0 : Fin 2) = (n / 8) % 2 := (idx1 ⟨n, hn⟩).1
  have e1 : win0_1.index ⟨n, hn⟩ (1 : Fin 2) = n % 8 := (idx1 ⟨n, hn⟩).2
  unfold iblk
  rw [View.read_apply]
  show V m c main_v10 _ = V m c main_v10 _
  congr 1
  funext a
  apply Fin.ext
  match a with
  | ⟨0, _⟩ => show win0_1.index ⟨n, hn⟩ (0 : Fin 2) * 2048 + 1 * r.val = 2048 * ((n / 8) % 2) + r.val; rw [e0]; omega
  | ⟨1, _⟩ => show win0_1.index ⟨n, hn⟩ (1 : Fin 2) * 512 + 1 * k.val = 512 * (n % 8) + k.val; rw [e1]; omega

/-! ## One point's product, and a sweep's sum -/

/-- The block product of point `n` at `(p, r)`: a sum over the point's 512 columns. -/
theorem reset_apply (c : Dev nD) (n : ℕ) (hn : n < cfg0.N) (p : Fin 1024) (r : Fin 2048) :
    reset (F := Ideal) m c n hn (ix2 p r)
      = ∑ k : Fin 512, Xn m c (1024 * (n / 16) + p.val) (512 * (n % 8) + k.val) * Wn m c (2048 * ((n / 8) % 2) + r.val) (512 * (n % 8) + k.val) := by
  have hN : n < 512 := lt_of_lt_of_eq hn (show cfg0.N = 512 from N_0)
  have hp := p.isLt
  have hr := r.isLt
  unfold reset
  refine (Cert.KernelIdeal.Pay.pay1_apply (iblk m c 0 ⟨n, hn⟩) (iblk m c 1 ⟨n, hn⟩) p r).trans ?_
  refine Finset.sum_congr rfl fun k _ => ?_
  have hk := k.isLt
  rw [iblk0_apply m c n hn p k (by omega) (by omega), iblk1_apply m c n hn r k (by omega) (by omega)]
  unfold Xn Wn
  rw [dif_pos ⟨by omega, by omega⟩, dif_pos ⟨by omega, by omega⟩]

/-- Point `n`'s product as a function of every natural `n` (zero past the grid). -/
def Mn (c : Dev nD) (n : ℕ) : S1024x2048.Idx → EReal := fun i =>
  if hn : n < cfg0.N then reset (F := Ideal) m c n hn i else 0

/-- After the last point of a sweep the output's buffer holds, at `(p, r)`, the full product over all 4096 columns. -/
theorem flush_val (c : Dev nD) (t : Fin cfg0.N) (h7 : t.val % 8 = 7) (p : Fin 1024) (r : Fin 2048) :
    outsAt (F := Ideal) m c t.val t.isLt (ix2 p r)
      = ∑ k : Fin 4096, Xn m c (1024 * (t.val / 16) + p.val) k.val * Wn m c (2048 * ((t.val / 8) % 2) + r.val) k.val := by
  have hN : t.val < 512 := lt_of_lt_of_eq t.isLt (show cfg0.N = 512 from N_0)
  have h' : 8 * (t.val / 8) + t.val % 8 < cfg0.N := by rw [Nat.div_add_mod]; exact t.isLt
  rw [outsAt_fold m c t.val t.isLt h']
  have key := Pipeline.accAt_add_apply (ι := S1024x2048.Idx) (β := EReal) (reset (F := Ideal) m c) (step (F := Ideal) m c)
    (fun _ => (0 : EReal)) (Mn m c) (8 * (t.val / 8)) 7
    (fun h i => by show _ = (0 : EReal) + Mn m c _ i; unfold Mn; rw [dif_pos h, zero_add])
    (fun n h acc i _ _ => by
      unfold step Mn reset; rw [dif_pos h]
      exact Cert.KernelIdeal.Pay.pay2_apply (iblk m c 0 ⟨n, h⟩) (iblk m c 1 ⟨n, h⟩) acc i)
    (t.val % 8) (by omega) h' (ix2 p r)
  refine key.trans ?_
  show (0 : EReal) + _ = _
  rw [zero_add, h7]
  rw [← Cert.KernelIdeal.Pay.sum_fin_blocks (fun j => Xn m c (1024 * (t.val / 16) + p.val) j * Wn m c (2048 * ((t.val / 8) % 2) + r.val) j)]
  refine Finset.sum_congr rfl fun s hs => ?_
  have hs8 : s < 8 := Finset.mem_range.mp hs
  have hn : 8 * (t.val / 8) + s < cfg0.N :=
    lt_of_lt_of_eq (by omega : 8 * (t.val / 8) + s < 512) (show cfg0.N = 512 from N_0).symm
  unfold Mn
  rw [dif_pos hn, reset_apply m c _ hn p r]
  refine Finset.sum_congr rfl fun k _ => ?_
  have e1 : (8 * (t.val / 8) + s) / 16 = t.val / 16 := by omega
  have e2 : (8 * (t.val / 8) + s) % 8 = s := by omega
  have e3 : ((8 * (t.val / 8) + s) / 8) % 2 = (t.val / 8) % 2 := by omega
  rw [e1, e2, e3]

/-! ## From the blocks to the array -/

/-- The result array: row `R` of the activations against row `O` of the weights, summed over the 4096 columns. -/
def G (c : Dev nD) : S32768x4096.Idx → EReal := fun i =>
  ∑ k : Fin 4096, Xn m c (i 0).val k.val * Wn m c (i 1).val k.val

/-- What a sweep's last point writes back is its block of `G`. -/
theorem flushed_eq (c : Dev nD) (t : Fin cfg0.N) (hf : (cfg0.win 2).flush t = true) :
    (dats (F := Ideal) m 0 c).flushed 2 t = ((cfg0.win 2).blk t).view.read (Elt Ideal) (G m c) := by
  have h7 : t.val % 8 = 7 := (flush0_2 t).mp hf
  show (cfg0.win 2).cut (grid0.coords t) ((dats m 0 c).after 2 t) = _
  rw [after2]
  funext j
  have hj0 : (j 0).val < 1024 := (j 0).isLt
  have hj1 : (j 1).val < 2048 := (j 1).isLt
  show outsAt m c t.val t.isLt j = G m c (((cfg0.win 2).blk t).view.emb j)
  rw [show j = ix2 (n0 := 1024) (n1 := 2048) ⟨(j 0).val, hj0⟩ ⟨(j 1).val, hj1⟩ from funext fun a => by
    match a with
    | ⟨0, _⟩ => rfl
    | ⟨1, _⟩ => rfl]
  rw [flush_val m c t h7]
  unfold G
  have e0 : ((((cfg0.win 2).blk t).view.emb (ix2 (n0 := 1024) (n1 := 2048) ⟨(j 0).val, hj0⟩ ⟨(j 1).val, hj1⟩)) 0).val = 1024 * (t.val / 16) + (j 0).val := by
    show win0_2.index t (0 : Fin 2) * 1024 + 1 * (j 0).val = _; rw [(idx2 t).1]; omega
  have e1 : ((((cfg0.win 2).blk t).view.emb (ix2 (n0 := 1024) (n1 := 2048) ⟨(j 0).val, hj0⟩ ⟨(j 1).val, hj1⟩)) 1).val = 2048 * ((t.val / 8) % 2) + (j 1).val := by
    show win0_2.index t (1 : Fin 2) * 2048 + 1 * (j 1).val = _; rw [(idx2 t).2]; omega
  rw [e0, e1]

/-- An index of the result array is in point `t`'s block iff each coordinate is in the block's range on its axis. -/
theorem mem_blk (t : Fin cfg0.N) (i : S32768x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v12).slice (win0_2.rect t)).set ↔ _
  rw [View.set_slice_whole, Rect.mem_set_unit]
  exact Iff.rfl

/-- Every index of the result array lies in the block of a sweep's last point. -/
theorem cover (i : S32768x4096.Idx) : ∃ t : Fin cfg0.N, (cfg0.win 2).flush t = true ∧ i ∈ ((cfg0.win 2).blk t).view.set := by
  have hi0 : (i 0).val < 32768 := (i 0).isLt
  have hi1 : (i 1).val < 4096 := (i 1).isLt
  have hN : cfg0.N = 512 := N_0
  have hlt : 16 * ((i 0).val / 1024) + 8 * ((i 1).val / 2048) + 7 < cfg0.N :=
    lt_of_lt_of_eq (by omega : 16 * ((i 0).val / 1024) + 8 * ((i 1).val / 2048) + 7 < 512) hN.symm
  refine ⟨⟨_, hlt⟩, (flush0_2 _).mpr (by show (16 * ((i 0).val / 1024) + 8 * ((i 1).val / 2048) + 7) % 8 = 7; omega), ?_⟩
  rw [mem_blk]
  have q0 : win0_2.index ⟨_, hlt⟩ (0 : Fin 2) = (16 * ((i 0).val / 1024) + 8 * ((i 1).val / 2048) + 7) / 16 := (idx2 ⟨_, hlt⟩).1
  have q1 : win0_2.index ⟨_, hlt⟩ (1 : Fin 2) = ((16 * ((i 0).val / 1024) + 8 * ((i 1).val / 2048) + 7) / 8) % 2 := (idx2 ⟨_, hlt⟩).2
  intro a
  match a with
  | ⟨0, _⟩ =>
    show win0_2.index _ (0 : Fin 2) * 1024 ≤ (i 0).val ∧ (i 0).val < win0_2.index _ (0 : Fin 2) * 1024 + 1024
    rw [q0]; omega
  | ⟨1, _⟩ =>
    show win0_2.index _ (1 : Fin 2) * 2048 ≤ (i 1).val ∧ (i 1).val < win0_2.index _ (1 : Fin 2) * 2048 + 2048
    rw [q1]; omega

/-- The result array after the region. -/
theorem final (c : Dev nD) : (dats (F := Ideal) m 0 c).arrAt 2 cfg0.N = G m c :=
  (dats m 0 c).arrAt_eq_of_cover 2 (G m c) (fun t hf => flushed_eq m c t hf) cover

end Cert.KernelIdeal.Body

end
-- ==== Proof.KernelIdealHost.lean ====
/-
  What the matrix-product region finds in its two input arrays, and what is done to its output array afterwards, entry
  by entry over the extended reals.

  Before the region the program (a) lays the activations `x` (8 × 4096 × 4096) out as a flat array of 32768 rows of
  4096: row `4096 · b + r` of the flat array is row `(b, r)` of `x`; and (b) quantizes the weights `w` to three levels
  around their mean absolute value (`Cert.Spec.tern`) and changes their float format, which over the extended reals
  does nothing. After the region the flat result (32768 × 4096) is cut back into 8 slabs of 4096 rows: entry
  `(b, r, o)` of the result is entry `(4096 · b + r, o)` of the flat array.

  Each statement is proved first as an equation between whole arrays (the operations before the region, run in
  order from the launch contents, leave exactly this term in the buffer), then read at an index: a reshape keeps an
  entry's position in row-major order, and both positions are sums of products of the coordinates.
-/
import proofs.«157210_j19533511262471_2_alg».proof.Proof.Gen.KernelIdeal.Frame
import proofs.«157210_j19533511262471_2_alg».proof.Proof.Spec
import Idealize.ShloMosaic.Lib.ValueIdx
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo

/-! ## The two reshapes at an index -/

/-- Flattening the two leading axes: row `4096 · b + r` of the flat array is row `(b, r)` of the operand. Both entries
    sit at position `(4096 · b + r) · 4096 + k` in row-major order. -/
theorem flatten_apply (X : S8x4096x4096.Idx → EReal) (b : Fin 8) (r k : Fin 4096) (h : 4096 * b.val + r.val < 32768) :
    shapeCast S32768x4096 X shapeCasts_S8x4096x4096_S32768x4096 (ix2 ⟨4096 * b.val + r.val, h⟩ k) = X (ix3 b r k) :=
  shapeCast_apply _ _ _ _ (by
    rw [Shape.rowMajor_val_three, Shape.rowMajor_val_two]
    show (b.val * 4096 + r.val) * 4096 + k.val = (4096 * b.val + r.val) * 4096 + k.val
    omega)

/-- Cutting the flat array back into 8 slabs of 4096 rows: entry `(b, r, o)` is entry `(4096 · b + r, o)` of the flat
    array. -/
theorem unflatten_apply (G : S32768x4096.Idx → EReal) (b : Fin 8) (r o : Fin 4096) (h : 4096 * b.val + r.val < 32768) :
    shapeCast S8x4096x4096 G shapeCasts_S32768x4096_S8x4096x4096 (ix3 b r o) = G (ix2 ⟨4096 * b.val + r.val, h⟩ o) :=
  shapeCast_apply _ _ _ _ (by
    rw [Shape.rowMajor_val_two, Shape.rowMajor_val_three]
    show (4096 * b.val + r.val) * 4096 + o.val = (b.val * 4096 + r.val) * 4096 + o.val
    omega)

/-- The one operation after the region, from any contents `W`: the output buffer holds the flat result cut into slabs. -/
theorem tail_eq (W : Valuation τ sig (Elt Ideal)) :
    (StableHlo.after (hostOps1 (F := Ideal)) W (Proc.devRef .tc main_v13) : S8x4096x4096.Idx → EReal)
      = shapeCast S8x4096x4096 (W (Proc.devRef .tc main_v12) : S32768x4096.Idx → EReal) shapeCasts_S32768x4096_S8x4096x4096 := by
  after_results
  rfl

/-! ## The region's input arrays -/

variable (m : (ℓ : Loc nD τ sig) → Buf (Elt Ideal) ℓ) (c : Dev nD)

/-- The activations' array when the region is entered: the launch contents, flattened. -/
theorem V_x_eq : (V (F := Ideal) m c main_v11 : S32768x4096.Idx → EReal)
    = shapeCast S32768x4096 (m ((c : Thread nD τ).loc main_arg0) : S8x4096x4096.Idx → EReal) shapeCasts_S8x4096x4096_S32768x4096 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The weights' array when the region is entered: the launch weights quantized, then converted. The operations before
    the region are, line for line, the quantization's definition. -/
theorem V_w_eq : (V (F := Ideal) m c main_v10 : S4096x4096.Idx → EReal)
    = truncf (F := Ideal) .bf16 (Cert.Spec.tern reducesTo_S4096x4096_S_d0_1 h_S_ bcast_S_S4096x4096
        (m ((c : Thread nD τ).loc main_arg1))) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Entry `(o, k)` of the weights' array is the quantized weight: the change of format is the identity here. -/
theorem V_w_apply (o k : Fin 4096) :
    (V (F := Ideal) m c main_v10 : S4096x4096.Idx → EReal) (ix2 o k)
      = Cert.Spec.tern reducesTo_S4096x4096_S_d0_1 h_S_ bcast_S_S4096x4096 (m ((c : Thread nD τ).loc main_arg1)) (ix2 o k) :=
  congrFun (V_w_eq m c) (ix2 o k)

/-- Entry `(4096 · b + r, k)` of the activations' array is entry `(b, r, k)` of the launch activations. -/
theorem V_x_apply (b : Fin 8) (r k : Fin 4096) (h : 4096 * b.val + r.val < 32768) :
    (V (F := Ideal) m c main_v11 : S32768x4096.Idx → EReal) (ix2 ⟨4096 * b.val + r.val, h⟩ k)
      = m ((c : Thread nD τ).loc main_arg0) (ix3 b r k) :=
  (congrFun (V_x_eq m c) _).trans (flatten_apply _ b r k h)

end Cert.KernelIdeal.Host

end
-- ==== Proof.KernelIdealResult.lean ====
/-
  The program's result at the ideal instance. After the region the flat result array is cut back into 8 slabs of 4096
  rows, so entry `(b, r, o)` of the program's result is the sum over `k` of the flat activations' entry
  `(4096 · b + r, k)` times the quantized weights' entry `(o, k)`; and the flat activations' row `4096 · b + r` is row
  `(b, r)` of the argument. Hence the result is the argument activations times the transpose of the quantized argument
  weights, and the run of the whole program ends there with both arguments unchanged.
-/
import proofs.«157210_j19533511262471_2_alg».proof.Proof.KernelIdealValue
import proofs.«157210_j19533511262471_2_alg».proof.Proof.KernelIdealHost
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ) (ρ : Dev nD → PrngReg)

/-- The result buffer after the one host operation that follows the region: the region's result array, cut into slabs. -/
theorem tail_eq (c : Dev nD) :
    (Pipeline.afterTail₀ cfgs (dats (F := Ideal) m) 0 (V0 m) [hostOps1] c main_v13 : S8x4096x4096.Idx → EReal)
      = shapeCast S8x4096x4096 (G m c) shapeCasts_S32768x4096_S8x4096x4096 := by
  unfold Pipeline.afterTail₀
  show StableHlo.after hostOps1 _ (Proc.devRef .tc main_v13) = _
  after_results
  have e : Pipeline.withArrays (cfgs 0).spec c (V0 m c) (fun w => (dats (F := Ideal) m 0 c).arrAt w (cfgs 0).N) (Proc.tc.devRef main_v12) = G m c :=
    (Pipeline.withArrays_arr spec0 launch0.win.arr_inj c _ _ 2).trans (final m c)
  rw [e]
  rfl

/-- Cut into slabs, the region's result is the activations times the transpose of the quantized weights. -/
theorem result_eq (c : Dev nD) :
    shapeCast S8x4096x4096 (G m c) shapeCasts_S32768x4096_S8x4096x4096
      = Cert.Spec.linear (m ((c.tc : Thread nD τ).loc main_arg0)) (Cert.Spec.tern reducesTo_S4096x4096_S_d0_1 h_S_ bcast_S_S4096x4096 (m ((c.tc : Thread nD τ).loc main_arg1))) := by
  funext i
  obtain ⟨b, r, o, rfl⟩ : ∃ (b : Fin 8) (r o : Fin 4096), i = ix3 b r o := ⟨i 0, i 1, i 2, eq_ix3 i⟩
  have hb := b.isLt
  have hr := r.isLt
  have ho := o.isLt
  rw [Cert.KernelIdeal.Host.unflatten_apply (G m c) b r o (by omega), Cert.Spec.linear_apply]
  unfold G
  refine Finset.sum_congr rfl fun k _ => ?_
  have hk := k.isLt
  show Xn m c (4096 * b.val + r.val) k.val * Wn m c o.val k.val = _
  unfold Xn Wn
  rw [dif_pos ⟨by omega, hk⟩, dif_pos ⟨ho, hk⟩]
  rw [Cert.KernelIdeal.Host.V_x_apply m c b r k (by omega), Cert.KernelIdeal.Host.V_w_apply m c o k]

/-- The program's run at the ideal instance: it ends with the result at the activations times the transpose of the
    quantized weights, and with both arguments as launched. -/
theorem run : θ_run defs (onTc (τ := τ) (main (F := Ideal))) ⟨m, fun _ => 0, ρ⟩ (fun r => ∀ c : Dev nD,
      r.2.mem ((c.tc : Thread nD τ).loc main_v13) = Cert.Spec.linear (m ((c.tc : Thread nD τ).loc main_arg0)) (Cert.Spec.tern reducesTo_S4096x4096_S_d0_1 h_S_ bcast_S_S4096x4096 (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v13 (Pipeline.mem_restRefs_of main_v13 (by decide) (by decide))).trans ((tail_eq m c).trans (result_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Body

end
-- ==== Proof.RefValue.lean ====
/-
  The reference side of the certificate, value part.

  The reference computes the scale `s = mean |w| + ε`, the three-level weights `a = clip (round (w / s)) (-1) 1 · s`, then
  `w' = w + (a - w)` and finally the product of the activations with the transpose of `w'`:
  entry `(b, r, o)` is the sum over `k` of `x (b, r, k) · w' (o, k)`.
  On the extended reals `w + (a - w) = a` as soon as `w` is a real number, so when every entry of `w` is real the
  result is `linear x (tern w)`, entry by entry. The term for `a` is the same term as `tern w`: the chain of stages
  that produces it is matched against the definition of `tern`, stage by stage, and nothing is computed.
-/
import proofs.«157210_j19533511262471_2_alg».proof.Proof.Spec
import proofs.«157210_j19533511262471_2_alg».proof.Proof.Gen.ReferenceIdeal.Run
import proofs.«157210_j19533511262471_2_alg».proof.Proof.Gen.ReferenceIdeal.Read

noncomputable section

open scoped BigOperators

namespace Cert.RefSide

open Idealize.ShloMosaic Idealize.ShloMosaic.ValueIdx Idealize.ShloMosaic.TcCoe Idealize.SL.Sem
open Cert.ReferenceIdeal Cert.ReferenceIdeal.Read

/-- The stage that holds the three-level weights is `tern` of the weights: the same term, stage by stage. -/
theorem quantized_eq [Cert.ReferenceIdeal.Facts] (w : FVec Ideal Cert.Spec.SW .f32) :
    val_main_v9 (F := Ideal) w
      = Cert.Spec.tern Cert.ReferenceIdeal.Facts₀.reducesTo_S4096x4096_S_d0_1 Cert.ReferenceIdeal.Facts₀.h_S_
          Cert.ReferenceIdeal.Facts₀.bcast_S_S4096x4096 w := rfl

/-- Where the weight is a real number, adding back the quantization error gives the quantized weight. -/
theorem restored_apply [Cert.ReferenceIdeal.Facts] (w : FVec Ideal Cert.Spec.SW .f32) (j : Cert.Spec.SW.Idx) (r : ℝ)
    (hr : w j = (r : EReal)) :
    val_main_v11 (F := Ideal) w j
      = Cert.Spec.tern Cert.ReferenceIdeal.Facts₀.reducesTo_S4096x4096_S_d0_1 Cert.ReferenceIdeal.Facts₀.h_S_
          Cert.ReferenceIdeal.Facts₀.bcast_S_S4096x4096 w j := by
  rw [← quantized_eq w]
  show w j + (val_main_v9 (F := Ideal) w j - w j) = _
  rw [hr]
  exact Cert.Spec.add_sub_cancel_real r _

/-- The reference's result, when every weight is a real number: the activations times the transpose of the
    three-level weights. -/
theorem result_eq [Cert.ReferenceIdeal.Facts] (x : FVec Ideal Cert.Spec.SX .f32) (w : FVec Ideal Cert.Spec.SW .f32)
    (hw : ∀ i, ∃ r : ℝ, w i = (r : EReal)) :
    val_main_v12 (F := Ideal) x w
      = Cert.Spec.linear x (Cert.Spec.tern Cert.ReferenceIdeal.Facts₀.reducesTo_S4096x4096_S_d0_1 Cert.ReferenceIdeal.Facts₀.h_S_
          Cert.ReferenceIdeal.Facts₀.bcast_S_S4096x4096 w) := by
  funext i
  rw [val_main_v12_apply]
  show _ = ∑ k : Fin 4096, x (ix3 (n0 := 8) (n1 := 4096) (i 0) (i 1) k) * _
  refine Finset.sum_congr rfl fun k _ => ?_
  have hl : lidx_main_v12 i k = ix3 (n0 := 8) (n1 := 4096) (i 0) (i 1) k := by
    funext a
    match a with
    | ⟨0, _⟩ => rfl
    | ⟨1, _⟩ => rfl
    | ⟨2, _⟩ => rfl
  have hr : ridx_main_v12 i k = ix2 (n0 := 4096) (i 2) k := by
    funext a
    match a with
    | ⟨0, _⟩ => rfl
    | ⟨1, _⟩ => rfl
  rw [hl, hr]
  obtain ⟨r, hr'⟩ := hw (ix2 (n0 := 4096) (i 2) k)
  exact congrArg (x (ix3 (n0 := 8) (n1 := 4096) (i 0) (i 1) k) * ·) (restored_apply w _ r hr')

/-- The reference's run, when every weight is a real number: every fair execution ends with the result buffer at the
    activations times the transpose of the three-level weights, and with the two arguments unchanged. -/
theorem run [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg)
    (hw : ∀ (c : Dev Cert.ReferenceIdeal.nD) i, ∃ r : ℝ,
      m' ((c.tc : Thread Cert.ReferenceIdeal.nD Cert.ReferenceIdeal.τ).loc Cert.ReferenceIdeal.main_arg1) i = (r : EReal)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v12)
          = Cert.Spec.linear (m' ((c.tc : Thread Cert.ReferenceIdeal.nD Cert.ReferenceIdeal.τ).loc Cert.ReferenceIdeal.main_arg0))
              (Cert.Spec.tern Cert.ReferenceIdeal.Facts₀.reducesTo_S4096x4096_S_d0_1 Cert.ReferenceIdeal.Facts₀.h_S_
                Cert.ReferenceIdeal.Facts₀.bcast_S_S4096x4096
                (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v12_eq (F := Ideal) _ _).trans (result_eq _ _ (hw c))), (h c).2⟩)
    (Cert.ReferenceIdeal.Value.run (F := Ideal) m' ρ')

end Cert.RefSide

end
-- ==== Proof.RefFinite.lean ====
/-
  The reference side of the certificate, finiteness part.

  The precondition says that every activation and every weight has absolute value below `+∞`. For a weight `w` read
  as an extended real that is `max w (-w) < ⊤`, which rules out both infinities: the weight is a real number.
-/
import proofs.«157210_j19533511262471_2_alg».proof.Proof.Spec
import proofs.«157210_j19533511262471_2_alg».proof.Pre_finite_inputs
import Idealize.ShloMosaic.Lib.ReduceAll
import Idealize.ShloMosaic.Lib.IdealHost

noncomputable section

namespace Cert.RefSide

open Idealize.ShloMosaic Idealize.ShloMosaic.ValueIdx

/-- The shape with no axes has exactly one index. -/
instance subsingleton_scalar_idx : Subsingleton Cert.Pre_finite_inputs.S_.Idx := ⟨fun _ _ => funext fun d => d.elim0⟩

/-- The pattern of the bound the precondition compares against denotes `+∞`. -/
theorem bound_eq_top : Ideal.ofBits .f32 0x7F800000#32 = (⊤ : EReal) := by
  simp [Ideal.ofBits, Ideal.ieee]

/-- A one-bit word made from a Boolean is the word one exactly when the Boolean is true. -/
theorem ofBool_eq_one_iff (b : Bool) : BitVec.ofBool b = 1#1 ↔ b = true := by cases b <;> decide

/-- An extended real whose absolute value is below `+∞` is a real number. -/
theorem real_of_abs_lt_top (v : EReal) (h : max v (-v) < ⊤) : ∃ r : ℝ, v = (r : EReal) := by
  induction v using EReal.rec with
  | bot => simp at h
  | top => simp at h
  | coe r => exact ⟨r, rfl⟩

/-- Under the precondition every weight is a real number. -/
theorem weight_real [Cert.Pre_finite_inputs.Facts] (a0 : FVec Ideal Cert.Spec.SX .f32) (a1 : FVec Ideal Cert.Spec.SW .f32)
    (h : Cert.Pre_finite_inputs.fn (F := Ideal) a0 a1 = fun _ => 1#1) : ∀ i, ∃ r : ℝ, a1 i = (r : EReal) := by
  intro i
  have h0 := congrFun h ValueIdx.ix0
  dsimp only [Cert.Pre_finite_inputs.fn] at h0
  have h1 := (IntOp.andi_eq_one.1 h0).2
  have hi := Host.reduce_andi_all _ _ _ _ _ h1 i
  have hb : broadcastInDim Cert.Pre_finite_inputs.S4096x4096 ![] Cert.Pre_finite_inputs.Facts.bcast_S_S4096x4096
      (constant (F := Ideal) Cert.Pre_finite_inputs.S_ .f32 0x7F800000#32) i = (⊤ : EReal) :=
    (broadcastInDim_scalar_apply _ _ i).trans bound_eq_top
  have hc : Ideal.cmp .olt (max (a1 i) (-(a1 i)))
      (broadcastInDim Cert.Pre_finite_inputs.S4096x4096 ![] Cert.Pre_finite_inputs.Facts.bcast_S_S4096x4096
        (constant (F := Ideal) Cert.Pre_finite_inputs.S_ .f32 0x7F800000#32) i) = 1#1 := hi
  rw [hb] at hc
  have hd : decide (max (a1 i) (-(a1 i)) < (⊤ : EReal)) = true := (ofBool_eq_one_iff _).1 hc
  have hlt : max (a1 i) (-(a1 i)) < (⊤ : EReal) := of_decide_eq_true hd
  exact real_of_abs_lt_top _ hlt

end Cert.RefSide

end
-- ==== Proof.lean ====
/-
  The certificate's five claims.

  Both programs quantize the weight matrix `w` to three levels around its mean absolute value, `a = clip (round (w / s))
  (-1) 1 · s` with `s = mean |w| + ε`, and multiply the activations by the transpose of the quantized matrix. The
  kernel does the product block by block — the output block of a (row block, column block) pair accumulates the
  products of eight blocks of the contracted axis — over the quantized weights directly; the reference multiplies by
  `w + (a − w)` in one product. Over the extended reals the blocked sum is the whole sum regrouped, and `w + (a − w) = a`
  because the precondition makes every weight a real number: the two results are one function of the arguments.

  The three frames: each kernel program's is the run of its pipeline with the output block's contents carried from point
  to point along a sweep (the same proof at the word-level and at the ideal instance); the reference has no kernel and its
  frame is its run with the result dropped. The idealization rewrote nothing, so there is nothing to preserve.
-/
import proofs.«157210_j19533511262471_2_alg».proof.Defs
import proofs.«157210_j19533511262471_2_alg».proof.Proof.Gen.Kernel
import proofs.«157210_j19533511262471_2_alg».proof.Proof.Gen.KernelIdeal
import proofs.«157210_j19533511262471_2_alg».proof.Proof.Gen.ReferenceIdeal
import proofs.«157210_j19533511262471_2_alg».proof.Proof.Gen.ReferenceIdeal.Run
import proofs.«157210_j19533511262471_2_alg».proof.Proof.Gen.ReferenceIdeal.Read
import proofs.«157210_j19533511262471_2_alg».proof.Proof.Gen.Pre_finite_inputs
import proofs.«157210_j19533511262471_2_alg».proof.Proof.KernelFrame
import proofs.«157210_j19533511262471_2_alg».proof.Proof.KernelIdealResult
import proofs.«157210_j19533511262471_2_alg».proof.Proof.RefValue
import proofs.«157210_j19533511262471_2_alg».proof.Proof.RefFinite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Body.frame (F := Bits) m ρ

/-- So does the kernel at the ideal instance. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, with every input finite, both programs end with the activations times the
    transpose of the quantized weights: the kernel by its blocked product, the reference because adding back the
    quantization error to a real weight gives the quantized weight. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hw : ∀ (c : Dev Cert.ReferenceIdeal.nD) i, ∃ r : ℝ,
      m' ((c.tc : Thread Cert.ReferenceIdeal.nD Cert.ReferenceIdeal.τ).loc Cert.ReferenceIdeal.main_arg1) i = (r : EReal) :=
    fun c => by rw [(hagree c).2]; exact Cert.RefSide.weight_real _ _ (hpre c)
  refine ⟨_, Cert.KernelIdeal.Body.run m ρ, ?_⟩
  refine (θ_run Cert.ReferenceIdeal.defs _ _).mono (fun _ h c => ⟨(h c).1.trans ?_, (h c).2⟩) (Cert.RefSide.run m' ρ' hw)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
